-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x256 : Shape := ⟨2, ![200000, 256]⟩
abbrev S768x256 : Shape := ⟨2, ![768, 256]⟩
abbrev S768x1024 : Shape := ⟨2, ![768, 1024]⟩
abbrev S1x768 : Shape := ⟨2, ![1, 768]⟩
abbrev S256x1024 : Shape := ⟨2, ![256, 1024]⟩
abbrev S200000x4 : Shape := ⟨2, ![200000, 4]⟩
abbrev S_ : Shape := ⟨0, ![]⟩

class Facts : Prop where
  bcast_S_S200000x256 : S_.BroadcastsInDim S200000x256 (![] : Fin 0 → Fin S200000x256.rank)
  reducesTo_S200000x256_S_d0_1 : S200000x256.ReducesTo [0, 1] S_
  h_S_ : 0 < S_.numel
  bcast_S_S768x256 : S_.BroadcastsInDim S768x256 (![] : Fin 0 → Fin S768x256.rank)
  reducesTo_S768x256_S_d0_1 : S768x256.ReducesTo [0, 1] S_
  bcast_S_S768x1024 : S_.BroadcastsInDim S768x1024 (![] : Fin 0 → Fin S768x1024.rank)
  reducesTo_S768x1024_S_d0_1 : S768x1024.ReducesTo [0, 1] S_
  bcast_S_S1x768 : S_.BroadcastsInDim S1x768 (![] : Fin 0 → Fin S1x768.rank)
  reducesTo_S1x768_S_d0_1 : S1x768.ReducesTo [0, 1] S_
  bcast_S_S256x1024 : S_.BroadcastsInDim S256x1024 (![] : Fin 0 → Fin S256x1024.rank)
  reducesTo_S256x1024_S_d0_1 : S256x1024.ReducesTo [0, 1] S_

variable [Facts]

def fn_part1 {F : FTy → Type} [FloatOps F] (main_arg4 : FVec F S1x768 .f32) (main_arg5 : FVec F S256x1024 .f32) (main_v13 : IVec S_ 1) (main_v16 : IVec S768x1024 1) : IVec S_ 1 :=
  let main_c_5 : IVec S_ 1 := constantI S_ 1 1#1
  let main_v17 : IVec S_ 1 := (fun x v => Host.reduce IntOp.andi x v reducesTo_S768x1024_S_d0_1 h_S_) main_v16 main_c_5
  let main_v18 : IVec S_ 1 := andi main_v13 main_v17
  let main_v19 : FVec F S1x768 .f32 := Host.absf main_arg4
  let main_cst_6 : FVec F S_ .f32 := constant S_ .f32 0x7F800000#32
  let main_v20 : FVec F S1x768 .f32 := broadcastInDim S1x768 ![] bcast_S_S1x768 main_cst_6
  let main_v21 : IVec S1x768 1 := cmpf .olt main_v19 main_v20
  let main_c_7 : IVec S_ 1 := constantI S_ 1 1#1
  let main_v22 : IVec S_ 1 := (fun x v => Host.reduce IntOp.andi x v reducesTo_S1x768_S_d0_1 h_S_) main_v21 main_c_7
  let main_v23 : IVec S_ 1 := andi main_v18 main_v22
  let main_v24 : FVec F S256x1024 .f32 := Host.absf main_arg5
  let main_cst_8 : FVec F S_ .f32 := constant S_ .f32 0x7F800000#32
  let main_v25 : FVec F S256x1024 .f32 := broadcastInDim S256x1024 ![] bcast_S_S256x1024 main_cst_8
  let main_v26 : IVec S256x1024 1 := cmpf .olt main_v24 main_v25
  let main_c_9 : IVec S_ 1 := constantI S_ 1 1#1
  let main_v27 : IVec S_ 1 := (fun x v => Host.reduce IntOp.andi x v reducesTo_S256x1024_S_d0_1 h_S_) main_v26 main_c_9
  let main_v28 : IVec S_ 1 := andi main_v23 main_v27
  main_v28

def fn {F : FTy → Type} [FloatOps F] (main_arg0 : FVec F S200000x256 .f32) (main_arg1 : FVec F S200000x256 .f32) (main_arg2 : FVec F S768x256 .f32) (main_arg3 : FVec F S768x1024 .f32) (main_arg4 : FVec F S1x768 .f32) (main_arg5 : FVec F S256x1024 .f32) (main_arg6 : IVec S200000x4 32) (main_arg7 : IVec S200000x4 32) : IVec S_ 1 :=
  let main_v0 : FVec F S200000x256 .f32 := Host.absf main_arg0
  let main_cst : FVec F S_ .f32 := constant S_ .f32 0x7F800000#32
  let main_v1 : FVec F S200000x256 .f32 := broadcastInDim S200000x256 ![] bcast_S_S200000x256 main_cst
  let main_v2 : IVec S200000x256 1 := cmpf .olt main_v0 main_v1
  let main_c : IVec S_ 1 := constantI S_ 1 1#1
  let main_v3 : IVec S_ 1 := (fun x v => Host.reduce IntOp.andi x v reducesTo_S200000x256_S_d0_1 h_S_) main_v2 main_c
  let main_v4 : FVec F S200000x256 .f32 := Host.absf main_arg1
  let main_cst_0 : FVec F S_ .f32 := constant S_ .f32 0x7F800000#32
  let main_v5 : FVec F S200000x256 .f32 := broadcastInDim S200000x256 ![] bcast_S_S200000x256 main_cst_0
  let main_v6 : IVec S200000x256 1 := cmpf .olt main_v4 main_v5
  let main_c_1 : IVec S_ 1 := constantI S_ 1 1#1
  let main_v7 : IVec S_ 1 := (fun x v => Host.reduce IntOp.andi x v reducesTo_S200000x256_S_d0_1 h_S_) main_v6 main_c_1
  let main_v8 : IVec S_ 1 := andi main_v3 main_v7
  let main_v9 : FVec F S768x256 .f32 := Host.absf main_arg2
  let main_cst_2 : FVec F S_ .f32 := constant S_ .f32 0x7F800000#32
  let main_v10 : FVec F S768x256 .f32 := broadcastInDim S768x256 ![] bcast_S_S768x256 main_cst_2
  let main_v11 : IVec S768x256 1 := cmpf .olt main_v9 main_v10
  let main_c_3 : IVec S_ 1 := constantI S_ 1 1#1
  let main_v12 : IVec S_ 1 := (fun x v => Host.reduce IntOp.andi x v reducesTo_S768x256_S_d0_1 h_S_) main_v11 main_c_3
  let main_v13 : IVec S_ 1 := andi main_v8 main_v12
  let main_v14 : FVec F S768x1024 .f32 := Host.absf main_arg3
  let main_cst_4 : FVec F S_ .f32 := constant S_ .f32 0x7F800000#32
  let main_v15 : FVec F S768x1024 .f32 := broadcastInDim S768x1024 ![] bcast_S_S768x1024 main_cst_4
  let main_v16 : IVec S768x1024 1 := cmpf .olt main_v14 main_v15
  fn_part1 (F := F) main_arg4 main_arg5 main_v13 main_v16
-- ==== Kernel.lean ====
abbrev S200000x256 : Shape := ⟨2, ![200000, 256]⟩
abbrev S768x256 : Shape := ⟨2, ![768, 256]⟩
abbrev S768x1024 : Shape := ⟨2, ![768, 1024]⟩
abbrev S1x768 : Shape := ⟨2, ![1, 768]⟩
abbrev S256x1024 : Shape := ⟨2, ![256, 1024]⟩
abbrev S200000x4 : Shape := ⟨2, ![200000, 4]⟩
abbrev S_ : Shape := ⟨0, ![]⟩
abbrev S200000x4x1 : Shape := ⟨3, ![200000, 4, 1]⟩
abbrev S200000x4x256 : Shape := ⟨3, ![200000, 4, 256]⟩
abbrev S200000x1024 : Shape := ⟨2, ![200000, 1024]⟩
abbrev S256x768 : Shape := ⟨2, ![256, 768]⟩
abbrev S1024x768 : Shape := ⟨2, ![1024, 768]⟩
abbrev S256x512 : Shape := ⟨2, ![256, 512]⟩
abbrev S1024x512 : Shape := ⟨2, ![1024, 512]⟩
abbrev S1x512 : Shape := ⟨2, ![1, 512]⟩
abbrev S1024x256 : Shape := ⟨2, ![1024, 256]⟩
abbrev S800x256 : Shape := ⟨2, ![800, 256]⟩
abbrev S800x1024 : Shape := ⟨2, ![800, 1024]⟩
abbrev S800x512 : Shape := ⟨2, ![800, 512]⟩

abbrev nBuf : Space → Nat
  | .hbm => 32
  | .vmem => 10
  | .smem => 0
  | _ => 0

abbrev bufTy : (tb : Table) → Fin (tcTables nBuf tb) → BufTy
  | .hbm, ⟨0, _⟩ => ⟨S200000x256, .f32⟩
  | .hbm, ⟨1, _⟩ => ⟨S200000x256, .f32⟩
  | .hbm, ⟨2, _⟩ => ⟨S768x256, .f32⟩
  | .hbm, ⟨3, _⟩ => ⟨S768x1024, .f32⟩
  | .hbm, ⟨4, _⟩ => ⟨S1x768, .f32⟩
  | .hbm, ⟨5, _⟩ => ⟨S256x1024, .f32⟩
  | .hbm, ⟨6, _⟩ => ⟨S200000x4, .i32⟩
  | .hbm, ⟨7, _⟩ => ⟨S200000x4, .i32⟩
  | .hbm, ⟨8, _⟩ => ⟨S_, .i32⟩
  | .hbm, ⟨9, _⟩ => ⟨S200000x4, .i32⟩
  | .hbm, ⟨10, _⟩ => ⟨S200000x4, .i1⟩
  | .hbm, ⟨11, _⟩ => ⟨S_, .i32⟩
  | .hbm, ⟨12, _⟩ => ⟨S200000x4, .i32⟩
  | .hbm, ⟨13, _⟩ => ⟨S200000x4, .i32⟩
  | .hbm, ⟨14, _⟩ => ⟨S200000x4, .i32⟩
  | .hbm, ⟨15, _⟩ => ⟨S200000x4x1, .i32⟩
  | .hbm, ⟨16, _⟩ => ⟨S200000x4x256, .f32⟩
  | .hbm, ⟨17, _⟩ => ⟨S200000x4x1, .i32⟩
  | .hbm, ⟨18, _⟩ => ⟨S200000x4x1, .f32⟩
  | .hbm, ⟨19, _⟩ => ⟨S200000x4x256, .f32⟩
  | .hbm, ⟨20, _⟩ => ⟨S200000x4x256, .f32⟩
  | .hbm, ⟨21, _⟩ => ⟨S200000x1024, .f32⟩
  | .hbm, ⟨22, _⟩ => ⟨S256x768, .f32⟩
  | .hbm, ⟨23, _⟩ => ⟨S1024x768, .f32⟩
  | .hbm, ⟨24, _⟩ => ⟨S256x512, .f32⟩
  | .hbm, ⟨25, _⟩ => ⟨S1024x512, .f32⟩
  | .hbm, ⟨26, _⟩ => ⟨S1x512, .f32⟩
  | .hbm, ⟨27, _⟩ => ⟨S1024x256, .f32⟩
  | .hbm, ⟨28, _⟩ => ⟨S256x512, .bf16⟩
  | .hbm, ⟨29, _⟩ => ⟨S1024x512, .bf16⟩
  | .hbm, ⟨30, _⟩ => ⟨S1024x256, .bf16⟩
  | .hbm, ⟨31, _⟩ => ⟨S200000x256, .f32⟩
  | .local _ .vmem, ⟨0, _⟩ => ⟨S800x256, .f32⟩
  | .local _ .vmem, ⟨1, _⟩ => ⟨S800x256, .f32⟩
  | .local _ .vmem, ⟨2, _⟩ => ⟨S800x1024, .f32⟩
  | .local _ .vmem, ⟨3, _⟩ => ⟨S800x1024, .f32⟩
  | .local _ .vmem, ⟨4, _⟩ => ⟨S256x512, .bf16⟩
  | .local _ .vmem, ⟨5, _⟩ => ⟨S1024x512, .bf16⟩
  | .local _ .vmem, ⟨6, _⟩ => ⟨S1x512, .f32⟩
  | .local _ .vmem, ⟨7, _⟩ => ⟨S1024x256, .bf16⟩
  | .local _ .vmem, ⟨8, _⟩ => ⟨S800x256, .f32⟩
  | .local _ .vmem, ⟨9, _⟩ => ⟨S800x256, .f32⟩
  | _, _ => ⟨S200000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S800x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S800x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S800x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S200000x4 : S_.BroadcastsInDim S200000x4 (![] : Fin 0 → Fin S200000x4.rank)
  bcast_S200000x4_S200000x4x1_0_1 : S200000x4.BroadcastsInDim S200000x4x1 (![0, 1] : Fin 2 → Fin S200000x4x1.rank)
  bcast_S200000x4x1_S200000x4x256_0_1_2 : S200000x4x1.BroadcastsInDim S200000x4x256 (![0, 1, 2] : Fin 3 → Fin S200000x4x256.rank)
  shapeCasts_S200000x4x256_S200000x1024 : S200000x4x256.ShapeCasts S200000x1024
  transposes_S768x256_S256x768_1_0 : S768x256.Transposes [1, 0] S256x768
  transposes_S768x1024_S1024x768_1_0 : S768x1024.Transposes [1, 0] S1024x768
  slices_S256x768_S256x512_0_256 : S256x768.Slices ![0, 256] S256x512
  slices_S1024x768_S1024x512_0_256 : S1024x768.Slices ![0, 256] S1024x512
  slices_S1x768_S1x512_0_256 : S1x768.Slices ![0, 256] S1x512
  transposes_S256x1024_S1024x256_1_0 : S256x1024.Transposes [1, 0] S1024x256
  bitsLt_bf16_f32 : FTy.bits .bf16 < FTy.bits .f32
  inb_S800x256_S800x256_0_0 : ∀ a, (![0, 0] : Fin 2 → Nat) a + S800x256.size a ≤ S800x256.size a
  h_S800x256 : 0 < S800x256.numel
  inb_S800x1024_S800x1024_0_0 : ∀ a, (![0, 0] : Fin 2 → Nat) a + S800x1024.size a ≤ S800x1024.size a
  h_S800x1024 : 0 < S800x1024.numel
  shapeCasts_S800x1024_S800x1024 : S800x1024.ShapeCasts S800x1024
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S800x512 : S1x512.Broadcasts S800x512
  slices_S800x512_o0_0_S800x256 : S800x512.Slices ![0, 0] S800x256
  slices_S800x512_o0_256_S800x256 : S800x512.Slices ![0, 256] S800x256
  gather_S200000x256_S200000x4x1_S200000x4x256_2_0_n_n_0_2_1256_wf : GatherDims.WF S200000x256 S200000x4x1 S200000x4x256 [2] [0] [] [0] [] 2 ![1, 256]
  dot_S800x256_S256x512_S800x512_1_0_0_1_n_n_wf : DotDims.WF S800x256 S256x512 S800x512 [1] [0] [0] [1] [] []
  dot_S800x1024_S1024x512_S800x512_1_0_0_1_n_n_wf : DotDims.WF S800x1024 S1024x512 S800x512 [1] [0] [0] [1] [] []
  dot_S800x1024_S1024x256_S800x256_1_0_0_1_n_n_wf : DotDims.WF S800x1024 S1024x256 S800x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S800x256.size a ≤ S200000x256.size a
  hwx0_0 : ∀ i : grid0.Coords, EltTy.bits .f32 = 32 ∨ (Rect.block (s := S200000x256) S800x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S800x1024.size a ≤ S200000x1024.size a
  hwx0_1 : ∀ i : grid0.Coords, EltTy.bits .f32 = 32 ∨ (Rect.block (s := S200000x1024) S800x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S256x512.size a
  hwx0_2 : ∀ i : grid0.Coords, EltTy.bits .bf16 = 32 ∨ (Rect.block (s := S256x512) S256x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S1024x512.size a
  hwx0_3 : ∀ i : grid0.Coords, EltTy.bits .bf16 = 32 ∨ (Rect.block (s := S1024x512) S1024x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x256.size a ≤ S1024x256.size a
  hwx0_5 : ∀ i : grid0.Coords, EltTy.bits .bf16 = 32 ∨ (Rect.block (s := S1024x256) S1024x256.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S800x256.size a ≤ S200000x256.size a
  hwx0_6 : ∀ i : grid0.Coords, EltTy.bits .f32 = 32 ∨ (Rect.block (s := S200000x256) S800x256.size (cc0_transform_6 i) (hinb0_6 i)).WholeWords (EltTy.packing .f32)

variable [Facts₀]

def gather_S200000x256_S200000x4x1_S200000x4x256_2_0_n_n_0_2_1256 : GatherDims S200000x256 S200000x4x1 S200000x4x256 where
  offsetDims := [2]
  collapsedSliceDims := [0]
  operandBatchingDims := []
  startIndicesBatchingDims := []
  startIndexMap := [0]
  indexVectorDim := 2
  sliceSizes := ![1, 256]
  wf := gather_S200000x256_S200000x4x1_S200000x4x256_2_0_n_n_0_2_1256_wf
def dot_S800x256_S256x512_S800x512_1_0_0_1_n_n : DotDims S800x256 S256x512 S800x512 where
  lhsContracting := [1]
  rhsContracting := [0]
  lhsNonContracting := [0]
  rhsNonContracting := [1]
  lhsBatch := []
  rhsBatch := []
  wf := dot_S800x256_S256x512_S800x512_1_0_0_1_n_n_wf
def dot_S800x1024_S1024x512_S800x512_1_0_0_1_n_n : DotDims S800x1024 S1024x512 S800x512 where
  lhsContracting := [1]
  rhsContracting := [0]
  lhsNonContracting := [0]
  rhsNonContracting := [1]
  lhsBatch := []
  rhsBatch := []
  wf := dot_S800x1024_S1024x512_S800x512_1_0_0_1_n_n_wf
def dot_S800x1024_S1024x256_S800x256_1_0_0_1_n_n : DotDims S800x1024 S1024x256 S800x256 where
  lhsContracting := [1]
  rhsContracting := [0]
  lhsNonContracting := [0]
  rhsNonContracting := [1]
  lhsBatch := []
  rhsBatch := []
  wf := dot_S800x1024_S1024x256_S800x256_1_0_0_1_n_n_wf

abbrev win0_0 : Pipeline.Window sig grid0 :=
  Pipeline.Window.ofSpec (Memref.whole main_arg0) S800x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S800x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S256x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S1024x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S1024x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21) S800x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S200000x256 : Shape := ⟨2, ![200000, 256]⟩
abbrev S768x256 : Shape := ⟨2, ![768, 256]⟩
abbrev S768x1024 : Shape := ⟨2, ![768, 1024]⟩
abbrev S1x768 : Shape := ⟨2, ![1, 768]⟩
abbrev S256x1024 : Shape := ⟨2, ![256, 1024]⟩
abbrev S200000x4 : Shape := ⟨2, ![200000, 4]⟩
abbrev S_ : Shape := ⟨0, ![]⟩
abbrev S200000x4x1 : Shape := ⟨3, ![200000, 4, 1]⟩
abbrev S200000x4x256 : Shape := ⟨3, ![200000, 4, 256]⟩
abbrev S200000x1024 : Shape := ⟨2, ![200000, 1024]⟩
abbrev S256x768 : Shape := ⟨2, ![256, 768]⟩
abbrev S200000x768 : Shape := ⟨2, ![200000, 768]⟩
abbrev S1024x768 : Shape := ⟨2, ![1024, 768]⟩
abbrev S1024x256 : Shape := ⟨2, ![1024, 256]⟩

abbrev nBuf : Space → Nat
  | .hbm => 49
  | .vmem => 0
  | .smem => 0
  | _ => 0

abbrev bufTy : (tb : Table) → Fin (tcTables nBuf tb) → BufTy
  | .hbm, ⟨0, _⟩ => ⟨S200000x256, .f32⟩
  | .hbm, ⟨1, _⟩ => ⟨S200000x256, .f32⟩
  | .hbm, ⟨2, _⟩ => ⟨S768x256, .f32⟩
  | .hbm, ⟨3, _⟩ => ⟨S768x1024, .f32⟩
  | .hbm, ⟨4, _⟩ => ⟨S1x768, .f32⟩
  | .hbm, ⟨5, _⟩ => ⟨S256x1024, .f32⟩
  | .hbm, ⟨6, _⟩ => ⟨S200000x4, .i32⟩
  | .hbm, ⟨7, _⟩ => ⟨S200000x4, .i32⟩
  | .hbm, ⟨8, _⟩ => ⟨S_, .i32⟩
  | .hbm, ⟨9, _⟩ => ⟨S200000x4, .i32⟩
  | .hbm, ⟨10, _⟩ => ⟨S200000x4, .i1⟩
  | .hbm, ⟨11, _⟩ => ⟨S_, .i32⟩
  | .hbm, ⟨12, _⟩ => ⟨S200000x4, .i32⟩
  | .hbm, ⟨13, _⟩ => ⟨S200000x4, .i32⟩
  | .hbm, ⟨14, _⟩ => ⟨S200000x4, .i32⟩
  | .hbm, ⟨15, _⟩ => ⟨S200000x4x1, .i32⟩
  | .hbm, ⟨16, _⟩ => ⟨S200000x4x256, .f32⟩
  | .hbm, ⟨17, _⟩ => ⟨S200000x4x1, .i32⟩
  | .hbm, ⟨18, _⟩ => ⟨S200000x4x1, .f32⟩
  | .hbm, ⟨19, _⟩ => ⟨S200000x4x256, .f32⟩
  | .hbm, ⟨20, _⟩ => ⟨S200000x4x256, .f32⟩
  | .hbm, ⟨21, _⟩ => ⟨S200000x1024, .f32⟩
  | .hbm, ⟨22, _⟩ => ⟨S256x768, .f32⟩
  | .hbm, ⟨23, _⟩ => ⟨S200000x768, .f32⟩
  | .hbm, ⟨24, _⟩ => ⟨S1024x768, .f32⟩
  | .hbm, ⟨25, _⟩ => ⟨S200000x768, .f32⟩
  | .hbm, ⟨26, _⟩ => ⟨S200000x768, .f32⟩
  | .hbm, ⟨27, _⟩ => ⟨S200000x768, .f32⟩
  | .hbm, ⟨28, _⟩ => ⟨S200000x768, .f32⟩
  | .hbm, ⟨29, _⟩ => ⟨S200000x256, .f32⟩
  | .hbm, ⟨30, _⟩ => ⟨S200000x256, .f32⟩
  | .hbm, ⟨31, _⟩ => ⟨S200000x256, .f32⟩
  | .hbm, ⟨32, _⟩ => ⟨S200000x256, .f32⟩
  | .hbm, ⟨33, _⟩ => ⟨S200000x256, .f32⟩
  | .hbm, ⟨34, _⟩ => ⟨S_, .f32⟩
  | .hbm, ⟨35, _⟩ => ⟨S200000x256, .f32⟩
  | .hbm, ⟨36, _⟩ => ⟨S200000x256, .f32⟩
  | .hbm, ⟨37, _⟩ => ⟨S_, .f32⟩
  | .hbm, ⟨38, _⟩ => ⟨S200000x256, .f32⟩
  | .hbm, ⟨39, _⟩ => ⟨S200000x256, .f32⟩
  | .hbm, ⟨40, _⟩ => ⟨S200000x256, .f32⟩
  | .hbm, ⟨41, _⟩ => ⟨S1024x256, .f32⟩
  | .hbm, ⟨42, _⟩ => ⟨S200000x256, .f32⟩
  | .hbm, ⟨43, _⟩ => ⟨S200000x256, .f32⟩
  | .hbm, ⟨44, _⟩ => ⟨S_, .f32⟩
  | .hbm, ⟨45, _⟩ => ⟨S200000x256, .f32⟩
  | .hbm, ⟨46, _⟩ => ⟨S200000x256, .f32⟩
  | .hbm, ⟨47, _⟩ => ⟨S200000x256, .f32⟩
  | .hbm, ⟨48, _⟩ => ⟨S200000x256, .f32⟩
  | _, _ => ⟨S200000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst : Ref sig .tc := ⟨.hbm, 34, rfl⟩
abbrev main_v24 : Ref sig .tc := ⟨.hbm, 35, rfl⟩
abbrev main_v25 : Ref sig .tc := ⟨.hbm, 36, rfl⟩
abbrev main_cst_1 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_2 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]

class Facts₀ : Prop where
  bcast_S_S200000x4 : S_.BroadcastsInDim S200000x4 (![] : Fin 0 → Fin S200000x4.rank)
  bcast_S200000x4_S200000x4x1_0_1 : S200000x4.BroadcastsInDim S200000x4x1 (![0, 1] : Fin 2 → Fin S200000x4x1.rank)
  bcast_S200000x4x1_S200000x4x256_0_1_2 : S200000x4x1.BroadcastsInDim S200000x4x256 (![0, 1, 2] : Fin 3 → Fin S200000x4x256.rank)
  shapeCasts_S200000x4x256_S200000x1024 : S200000x4x256.ShapeCasts S200000x1024
  transposes_S768x256_S256x768_1_0 : S768x256.Transposes [1, 0] S256x768
  transposes_S768x1024_S1024x768_1_0 : S768x1024.Transposes [1, 0] S1024x768
  bcast_S1x768_S200000x768_0_1 : S1x768.BroadcastsInDim S200000x768 (![0, 1] : Fin 2 → Fin S200000x768.rank)
  slices_S200000x768_S200000x256_0_0 : S200000x768.Slices ![0, 0] S200000x256
  slices_S200000x768_S200000x256_0_256 : S200000x768.Slices ![0, 256] S200000x256
  slices_S200000x768_S200000x256_0_512 : S200000x768.Slices ![0, 512] S200000x256
  bcast_S_S200000x256 : S_.BroadcastsInDim S200000x256 (![] : Fin 0 → Fin S200000x256.rank)
  transposes_S256x1024_S1024x256_1_0 : S256x1024.Transposes [1, 0] S1024x256
  gather_S200000x256_S200000x4x1_S200000x4x256_2_0_n_n_0_2_1256_wf : GatherDims.WF S200000x256 S200000x4x1 S200000x4x256 [2] [0] [] [0] [] 2 ![1, 256]
  dot_S200000x256_S256x768_S200000x768_1_0_0_1_n_n_wf : DotDims.WF S200000x256 S256x768 S200000x768 [1] [0] [0] [1] [] []
  dot_S200000x1024_S1024x768_S200000x768_1_0_0_1_n_n_wf : DotDims.WF S200000x1024 S1024x768 S200000x768 [1] [0] [0] [1] [] []
  dot_S200000x1024_S1024x256_S200000x256_1_0_0_1_n_n_wf : DotDims.WF S200000x1024 S1024x256 S200000x256 [1] [0] [0] [1] [] []

variable [Facts₀]

def gather_S200000x256_S200000x4x1_S200000x4x256_2_0_n_n_0_2_1256 : GatherDims S200000x256 S200000x4x1 S200000x4x256 where
  offsetDims := [2]
  collapsedSliceDims := [0]
  operandBatchingDims := []
  startIndicesBatchingDims := []
  startIndexMap := [0]
  indexVectorDim := 2
  sliceSizes := ![1, 256]
  wf := gather_S200000x256_S200000x4x1_S200000x4x256_2_0_n_n_0_2_1256_wf
def dot_S200000x256_S256x768_S200000x768_1_0_0_1_n_n : DotDims S200000x256 S256x768 S200000x768 where
  lhsContracting := [1]
  rhsContracting := [0]
  lhsNonContracting := [0]
  rhsNonContracting := [1]
  lhsBatch := []
  rhsBatch := []
  wf := dot_S200000x256_S256x768_S200000x768_1_0_0_1_n_n_wf
def dot_S200000x1024_S1024x768_S200000x768_1_0_0_1_n_n : DotDims S200000x1024 S1024x768 S200000x768 where
  lhsContracting := [1]
  rhsContracting := [0]
  lhsNonContracting := [0]
  rhsNonContracting := [1]
  lhsBatch := []
  rhsBatch := []
  wf := dot_S200000x1024_S1024x768_S200000x768_1_0_0_1_n_n_wf
def dot_S200000x1024_S1024x256_S200000x256_1_0_0_1_n_n : DotDims S200000x1024 S1024x256 S200000x256 where
  lhsContracting := [1]
  rhsContracting := [0]
  lhsNonContracting := [0]
  rhsNonContracting := [1]
  lhsBatch := []
  rhsBatch := []
  wf := dot_S200000x1024_S1024x256_S200000x256_1_0_0_1_n_n_wf

class Facts : Prop extends Facts₀ where

variable [Facts]
-- ==== Proof.Spec.lean ====
/-
  The function both programs compute, stated once over the extended reals.

  One node of an n-ary tree GRU: from a row `x` of the input features (256 entries) and a row `h` of the
  concatenated, masked child states (4 × 256 = 1024 entries) form two gate pre-activations

      u = (Σₖ x k · Wᵤ k + Σₖ h k · Uᵤ k) + bᵤ          o = (Σₖ x k · Wₒ k + Σₖ h k · Uₒ k) + bₒ

  and return   tanh o · σ u + (1 − σ u) · Σₖ h k · U₂ k,   where σ u = 1 / (1 + e^(−u)).

  The weight matrices hold three stacked gates of 256 rows each; the first is never read. Output column `j` reads
  the update gate at row `256 + j`, the output gate at row `512 + j`, and row `j` of the second matrix.
-/
import Idealize.ShloMosaic.PureOps.Ideal
import Idealize.ShloMosaic.Lib.ValueIdx

noncomputable section

namespace Cert.TreeGru

open Idealize.ShloMosaic Idealize.ShloMosaic.ValueIdx

/-- One gated cell: the rows and scalars it reads, in the order of the formula above. -/
def cell (xr : Fin 256 → EReal) (hr : Fin 1024 → EReal) (wu wo : Fin 256 → EReal) (uu uo : Fin 1024 → EReal)
    (bu bo : EReal) (u2 : Fin 1024 → EReal) : EReal :=
  Ideal.tanh ((∑ k : Fin 256, xr k * wo k + ∑ k : Fin 1024, hr k * uo k) + bo)
      * Ideal.logistic ((∑ k : Fin 256, xr k * wu k + ∑ k : Fin 1024, hr k * uu k) + bu)
    + (1 - Ideal.logistic ((∑ k : Fin 256, xr k * wu k + ∑ k : Fin 1024, hr k * uu k) + bu))
      * ∑ k : Fin 1024, hr k * u2 k

/-- Row of the stacked weights that holds the update gate of output column `j`. -/
def uRow (j : Fin 256) : Fin 768 := ⟨256 + j.val, by have := j.isLt; omega⟩

/-- Row of the stacked weights that holds the output gate of output column `j`. -/
def oRow (j : Fin 256) : Fin 768 := ⟨512 + j.val, by have := j.isLt; omega⟩

/-- The result at row `r`, column `j`, from the six arrays: features `X`, child states `H`, the stacked weights
    `W` (on `X`) and `U` (on `H`), the stacked bias `b`, and the second matrix `U2`. -/
def gruAt (X : (⟨2, ![200000, 256]⟩ : Shape).Idx → EReal) (H : (⟨2, ![200000, 1024]⟩ : Shape).Idx → EReal)
    (W : (⟨2, ![768, 256]⟩ : Shape).Idx → EReal) (U : (⟨2, ![768, 1024]⟩ : Shape).Idx → EReal)
    (b : (⟨2, ![1, 768]⟩ : Shape).Idx → EReal) (U2 : (⟨2, ![256, 1024]⟩ : Shape).Idx → EReal)
    (r : Fin 200000) (j : Fin 256) : EReal :=
  cell (fun k => X (ix2 r k)) (fun k => H (ix2 r k))
    (fun k => W (ix2 (uRow j) k)) (fun k => W (ix2 (oRow j) k))
    (fun k => U (ix2 (uRow j) k)) (fun k => U (ix2 (oRow j) k))
    (b (ix2 (0 : Fin 1) (uRow j))) (b (ix2 (0 : Fin 1) (oRow j)))
    (fun k => U2 (ix2 j k))

/-- The whole result array. -/
def gru (X : (⟨2, ![200000, 256]⟩ : Shape).Idx → EReal) (H : (⟨2, ![200000, 1024]⟩ : Shape).Idx → EReal)
    (W : (⟨2, ![768, 256]⟩ : Shape).Idx → EReal) (U : (⟨2, ![768, 1024]⟩ : Shape).Idx → EReal)
    (b : (⟨2, ![1, 768]⟩ : Shape).Idx → EReal) (U2 : (⟨2, ![256, 1024]⟩ : Shape).Idx → EReal) :
    (⟨2, ![200000, 256]⟩ : Shape).Idx → EReal :=
  fun i => gruAt X H W U b U2 (i 0) (i 1)

theorem gru_ix2 (X : (⟨2, ![200000, 256]⟩ : Shape).Idx → EReal) (H : (⟨2, ![200000, 1024]⟩ : Shape).Idx → EReal)
    (W : (⟨2, ![768, 256]⟩ : Shape).Idx → EReal) (U : (⟨2, ![768, 1024]⟩ : Shape).Idx → EReal)
    (b : (⟨2, ![1, 768]⟩ : Shape).Idx → EReal) (U2 : (⟨2, ![256, 1024]⟩ : Shape).Idx → EReal)
    (r : Fin 200000) (j : Fin 256) : gru X H W U b U2 (ix2 r j) = gruAt X H W U b U2 r j := rfl

end Cert.TreeGru

end
-- ==== Proof.Payload.lean ====
/-
  The kernel body's arithmetic, read at one entry of its 800 × 256 output block.

  The body multiplies the 800 × 256 block of features by the 256 × 512 weight block, the 800 × 1024 block of child
  states by the 1024 × 512 weight block, adds the two products and a bias row, splits the 512 columns into the update
  half (columns 0–255) and the output half (columns 256–511), and combines them with a third product, the child states
  by a 1024 × 256 block. Each matrix product accumulates from zero, so at an entry it is a plain finite sum; a change
  of float format is the identity on the extended reals. Hence entry (p, q) of the block is one gated cell of row p of
  the two row blocks and columns q and 256 + q of the weight blocks.
-/
import proofs.«127464_j16441134809400_1_alg».proof.Proof.Gen.KernelIdeal.Skeleton
import proofs.«127464_j16441134809400_1_alg».proof.Proof.Spec
import Idealize.ShloMosaic.Lib.ValueIdx
import Idealize.ShloMosaic.Lib.Pipeline.Value
import Idealize.ShloMosaic.PureOps.Ideal.Laws
import Idealize.ShloMosaic.Lib.IdealHost

noncomputable section

namespace Cert.TreeGru

open Idealize.ShloMosaic Idealize.ShloMosaic.ValueIdx Cert.KernelIdeal Cert.KernelIdeal.Gen

/-- Column `q` of the update half of the 512 gate columns. -/
def lo (q : Fin 256) : Fin 512 := ⟨q.val, by have := q.isLt; omega⟩
/-- Column `256 + q`: the output half. -/
def hi (q : Fin 256) : Fin 512 := ⟨256 + q.val, by have := q.isLt; omega⟩
/-- Gate column `c` of the kernel's sliced weights is row `256 + c` of the stacked weights (the first 256 rows are
    the gate that is never read). -/
def wRow (c : Fin 512) : Fin 768 := ⟨256 + c.val, by have := c.isLt; omega⟩

theorem wRow_lo (q : Fin 256) : wRow (lo q) = uRow q := rfl
theorem wRow_hi (q : Fin 256) : wRow (hi q) = oRow q :=
  Fin.ext (by show 256 + (256 + q.val) = 512 + q.val; omega)

/-! ### features × weights: [800,256] · [256,512] -/

theorem mm_xw_lhs0 (i : S800x512.Idx) (q : dot_S800x256_S256x512_S800x512_1_0_0_1_n_n.contr.Idx) :
    (dot_S800x256_S256x512_S800x512_1_0_0_1_n_n.lhsIdx i q 0).val = (i 0).val := by
  unfold DotDims.lhsIdx
  rw [dif_neg (show ¬(0 : Fin S800x256.rank) ∈ dot_S800x256_S256x512_S800x512_1_0_0_1_n_n.lhsBatch by decide), dif_pos (show (0 : Fin S800x256.rank) ∈ dot_S800x256_S256x512_S800x512_1_0_0_1_n_n.lhsNonContracting by decide)]
  rfl
theorem mm_xw_lhs1 (i : S800x512.Idx) (q : dot_S800x256_S256x512_S800x512_1_0_0_1_n_n.contr.Idx) :
    (dot_S800x256_S256x512_S800x512_1_0_0_1_n_n.lhsIdx i q 1).val = (q ⟨0, by decide⟩).val :=
  dot_S800x256_S256x512_S800x512_1_0_0_1_n_n.lhsIdx_val_of_single rfl i q
theorem mm_xw_rhs0 (i : S800x512.Idx) (q : dot_S800x256_S256x512_S800x512_1_0_0_1_n_n.contr.Idx) :
    (dot_S800x256_S256x512_S800x512_1_0_0_1_n_n.rhsIdx i q 0).val = (q ⟨0, by decide⟩).val :=
  dot_S800x256_S256x512_S800x512_1_0_0_1_n_n.rhsIdx_val_of_single rfl i q
theorem mm_xw_rhs1 (i : S800x512.Idx) (q : dot_S800x256_S256x512_S800x512_1_0_0_1_n_n.contr.Idx) :
    (dot_S800x256_S256x512_S800x512_1_0_0_1_n_n.rhsIdx i q 1).val = (i 1).val := by
  unfold DotDims.rhsIdx
  rw [dif_neg (show ¬(1 : Fin S256x512.rank) ∈ dot_S800x256_S256x512_S800x512_1_0_0_1_n_n.rhsBatch by decide), dif_pos (show (1 : Fin S256x512.rank) ∈ dot_S800x256_S256x512_S800x512_1_0_0_1_n_n.rhsNonContracting by decide)]
  rfl

/-- Entry (p, c) of the product accumulated from zero is the plain sum Σₖ a(p,k) · b(k,c). -/
theorem mm_xw (a : FVec Ideal S800x256 .bf16) (b : FVec Ideal S256x512 .bf16) (p : Fin 800) (c : Fin 512) :
    matmul dot_S800x256_S256x512_S800x512_1_0_0_1_n_n none a b (constant (F := Ideal) S800x512 .f32 0x00000000#32) (ix2 p c)
      = ∑ k : Fin 256, a (ix2 p k) * b (ix2 k c) := by
  simp only [matmul]
  rw [Ideal.matmul_constant_zero_apply, ← Equiv.sum_comp (contrEquiv1 dot_S800x256_S256x512_S800x512_1_0_0_1_n_n 256 rfl rfl).symm]
  refine Finset.sum_congr rfl fun k _ => ?_
  have hk := contrEquiv1_symm_val dot_S800x256_S256x512_S800x512_1_0_0_1_n_n 256 rfl rfl k
  have el : dot_S800x256_S256x512_S800x512_1_0_0_1_n_n.lhsIdx (ix2 p c) ((contrEquiv1 dot_S800x256_S256x512_S800x512_1_0_0_1_n_n 256 rfl rfl).symm k) = ix2 p k := funext fun a => Fin.ext (by
    match a with
    | ⟨0, _⟩ => exact mm_xw_lhs0 _ _
    | ⟨1, _⟩ => exact (mm_xw_lhs1 _ _).trans hk)
  have er : dot_S800x256_S256x512_S800x512_1_0_0_1_n_n.rhsIdx (ix2 p c) ((contrEquiv1 dot_S800x256_S256x512_S800x512_1_0_0_1_n_n 256 rfl rfl).symm k) = ix2 k c := funext fun a => Fin.ext (by
    match a with
    | ⟨0, _⟩ => exact (mm_xw_rhs0 _ _).trans hk
    | ⟨1, _⟩ => exact mm_xw_rhs1 _ _)
  rw [el, er]

/-! ### child states × weights: [800,1024] · [1024,512] -/

theorem mm_hu_lhs0 (i : S800x512.Idx) (q : dot_S800x1024_S1024x512_S800x512_1_0_0_1_n_n.contr.Idx) :
    (dot_S800x1024_S1024x512_S800x512_1_0_0_1_n_n.lhsIdx i q 0).val = (i 0).val := by
  unfold DotDims.lhsIdx
  rw [dif_neg (show ¬(0 : Fin S800x1024.rank) ∈ dot_S800x1024_S1024x512_S800x512_1_0_0_1_n_n.lhsBatch by decide), dif_pos (show (0 : Fin S800x1024.rank) ∈ dot_S800x1024_S1024x512_S800x512_1_0_0_1_n_n.lhsNonContracting by decide)]
  rfl
theorem mm_hu_lhs1 (i : S800x512.Idx) (q : dot_S800x1024_S1024x512_S800x512_1_0_0_1_n_n.contr.Idx) :
    (dot_S800x1024_S1024x512_S800x512_1_0_0_1_n_n.lhsIdx i q 1).val = (q ⟨0, by decide⟩).val :=
  dot_S800x1024_S1024x512_S800x512_1_0_0_1_n_n.lhsIdx_val_of_single rfl i q
theorem mm_hu_rhs0 (i : S800x512.Idx) (q : dot_S800x1024_S1024x512_S800x512_1_0_0_1_n_n.contr.Idx) :
    (dot_S800x1024_S1024x512_S800x512_1_0_0_1_n_n.rhsIdx i q 0).val = (q ⟨0, by decide⟩).val :=
  dot_S800x1024_S1024x512_S800x512_1_0_0_1_n_n.rhsIdx_val_of_single rfl i q
theorem mm_hu_rhs1 (i : S800x512.Idx) (q : dot_S800x1024_S1024x512_S800x512_1_0_0_1_n_n.contr.Idx) :
    (dot_S800x1024_S1024x512_S800x512_1_0_0_1_n_n.rhsIdx i q 1).val = (i 1).val := by
  unfold DotDims.rhsIdx
  rw [dif_neg (show ¬(1 : Fin S1024x512.rank) ∈ dot_S800x1024_S1024x512_S800x512_1_0_0_1_n_n.rhsBatch by decide), dif_pos (show (1 : Fin S1024x512.rank) ∈ dot_S800x1024_S1024x512_S800x512_1_0_0_1_n_n.rhsNonContracting by decide)]
  rfl

/-- Entry (p, c) of the product accumulated from zero is the plain sum Σₖ a(p,k) · b(k,c). -/
theorem mm_hu (a : FVec Ideal S800x1024 .bf16) (b : FVec Ideal S1024x512 .bf16) (p : Fin 800) (c : Fin 512) :
    matmul dot_S800x1024_S1024x512_S800x512_1_0_0_1_n_n none a b (constant (F := Ideal) S800x512 .f32 0x00000000#32) (ix2 p c)
      = ∑ k : Fin 1024, a (ix2 p k) * b (ix2 k c) := by
  simp only [matmul]
  rw [Ideal.matmul_constant_zero_apply, ← Equiv.sum_comp (contrEquiv1 dot_S800x1024_S1024x512_S800x512_1_0_0_1_n_n 1024 rfl rfl).symm]
  refine Finset.sum_congr rfl fun k _ => ?_
  have hk := contrEquiv1_symm_val dot_S800x1024_S1024x512_S800x512_1_0_0_1_n_n 1024 rfl rfl k
  have el : dot_S800x1024_S1024x512_S800x512_1_0_0_1_n_n.lhsIdx (ix2 p c) ((contrEquiv1 dot_S800x1024_S1024x512_S800x512_1_0_0_1_n_n 1024 rfl rfl).symm k) = ix2 p k := funext fun a => Fin.ext (by
    match a with
    | ⟨0, _⟩ => exact mm_hu_lhs0 _ _
    | ⟨1, _⟩ => exact (mm_hu_lhs1 _ _).trans hk)
  have er : dot_S800x1024_S1024x512_S800x512_1_0_0_1_n_n.rhsIdx (ix2 p c) ((contrEquiv1 dot_S800x1024_S1024x512_S800x512_1_0_0_1_n_n 1024 rfl rfl).symm k) = ix2 k c := funext fun a => Fin.ext (by
    match a with
    | ⟨0, _⟩ => exact (mm_hu_rhs0 _ _).trans hk
    | ⟨1, _⟩ => exact mm_hu_rhs1 _ _)
  rw [el, er]

/-! ### child states × second matrix: [800,1024] · [1024,256] -/

theorem mm_hu2_lhs0 (i : S800x256.Idx) (q : dot_S800x1024_S1024x256_S800x256_1_0_0_1_n_n.contr.Idx) :
    (dot_S800x1024_S1024x256_S800x256_1_0_0_1_n_n.lhsIdx i q 0).val = (i 0).val := by
  unfold DotDims.lhsIdx
  rw [dif_neg (show ¬(0 : Fin S800x1024.rank) ∈ dot_S800x1024_S1024x256_S800x256_1_0_0_1_n_n.lhsBatch by decide), dif_pos (show (0 : Fin S800x1024.rank) ∈ dot_S800x1024_S1024x256_S800x256_1_0_0_1_n_n.lhsNonContracting by decide)]
  rfl
theorem mm_hu2_lhs1 (i : S800x256.Idx) (q : dot_S800x1024_S1024x256_S800x256_1_0_0_1_n_n.contr.Idx) :
    (dot_S800x1024_S1024x256_S800x256_1_0_0_1_n_n.lhsIdx i q 1).val = (q ⟨0, by decide⟩).val :=
  dot_S800x1024_S1024x256_S800x256_1_0_0_1_n_n.lhsIdx_val_of_single rfl i q
theorem mm_hu2_rhs0 (i : S800x256.Idx) (q : dot_S800x1024_S1024x256_S800x256_1_0_0_1_n_n.contr.Idx) :
    (dot_S800x1024_S1024x256_S800x256_1_0_0_1_n_n.rhsIdx i q 0).val = (q ⟨0, by decide⟩).val :=
  dot_S800x1024_S1024x256_S800x256_1_0_0_1_n_n.rhsIdx_val_of_single rfl i q
theorem mm_hu2_rhs1 (i : S800x256.Idx) (q : dot_S800x1024_S1024x256_S800x256_1_0_0_1_n_n.contr.Idx) :
    (dot_S800x1024_S1024x256_S800x256_1_0_0_1_n_n.rhsIdx i q 1).val = (i 1).val := by
  unfold DotDims.rhsIdx
  rw [dif_neg (show ¬(1 : Fin S1024x256.rank) ∈ dot_S800x1024_S1024x256_S800x256_1_0_0_1_n_n.rhsBatch by decide), dif_pos (show (1 : Fin S1024x256.rank) ∈ dot_S800x1024_S1024x256_S800x256_1_0_0_1_n_n.rhsNonContracting by decide)]
  rfl

/-- Entry (p, c) of the product accumulated from zero is the plain sum Σₖ a(p,k) · b(k,c). -/
theorem mm_hu2 (a : FVec Ideal S800x1024 .bf16) (b : FVec Ideal S1024x256 .bf16) (p : Fin 800) (c : Fin 256) :
    matmul dot_S800x1024_S1024x256_S800x256_1_0_0_1_n_n none a b (constant (F := Ideal) S800x256 .f32 0x00000000#32) (ix2 p c)
      = ∑ k : Fin 1024, a (ix2 p k) * b (ix2 k c) := by
  simp only [matmul]
  rw [Ideal.matmul_constant_zero_apply, ← Equiv.sum_comp (contrEquiv1 dot_S800x1024_S1024x256_S800x256_1_0_0_1_n_n 1024 rfl rfl).symm]
  refine Finset.sum_congr rfl fun k _ => ?_
  have hk := contrEquiv1_symm_val dot_S800x1024_S1024x256_S800x256_1_0_0_1_n_n 1024 rfl rfl k
  have el : dot_S800x1024_S1024x256_S800x256_1_0_0_1_n_n.lhsIdx (ix2 p c) ((contrEquiv1 dot_S800x1024_S1024x256_S800x256_1_0_0_1_n_n 1024 rfl rfl).symm k) = ix2 p k := funext fun a => Fin.ext (by
    match a with
    | ⟨0, _⟩ => exact mm_hu2_lhs0 _ _
    | ⟨1, _⟩ => exact (mm_hu2_lhs1 _ _).trans hk)
  have er : dot_S800x1024_S1024x256_S800x256_1_0_0_1_n_n.rhsIdx (ix2 p c) ((contrEquiv1 dot_S800x1024_S1024x256_S800x256_1_0_0_1_n_n 1024 rfl rfl).symm k) = ix2 k c := funext fun a => Fin.ext (by
    match a with
    | ⟨0, _⟩ => exact (mm_hu2_rhs0 _ _).trans hk
    | ⟨1, _⟩ => exact mm_hu2_rhs1 _ _)
  rw [el, er]

/-! ### The layout operations of the body, at an entry -/

/-- The first 256 of the 512 gate columns. -/
theorem slice_lo (v : FVec Ideal S800x512 .f32) (h : S800x512.Slices ![0, 0] S800x256) (p : Fin 800) (q : Fin 256) :
    extractStridedSlice S800x256 ![0, 0] v h (ix2 p q) = v (ix2 p (lo q)) :=
  extractStridedSlice_apply ![0, 0] v h (ix2 p q) (ix2 p (lo q)) (fun a => match a with
    | ⟨0, _⟩ => by show p.val = 0 + p.val; omega
    | ⟨1, _⟩ => by show q.val = 0 + q.val; omega)

/-- The last 256 of the 512 gate columns. -/
theorem slice_hi (v : FVec Ideal S800x512 .f32) (h : S800x512.Slices ![0, 256] S800x256) (p : Fin 800) (q : Fin 256) :
    extractStridedSlice S800x256 ![0, 256] v h (ix2 p q) = v (ix2 p (hi q)) :=
  extractStridedSlice_apply ![0, 256] v h (ix2 p q) (ix2 p (hi q)) (fun a => match a with
    | ⟨0, _⟩ => by show p.val = 0 + p.val; omega
    | ⟨1, _⟩ => by show 256 + q.val = 256 + q.val; omega)

/-- The bias row repeated down the 800 rows. -/
theorem bias_row (v : FVec Ideal S1x512 .f32) (h : S1x512.Broadcasts S800x512) (p : Fin 800) (c : Fin 512) :
    broadcastTo S800x512 v h (ix2 p c) = v (ix2 (0 : Fin 1) c) :=
  broadcastTo_apply v h (ix2 p c) (ix2 (0 : Fin 1) c) (fun a => match a with
    | ⟨0, _⟩ => by show (0 : Nat) = if (1 : Nat) = 1 then 0 else p.val; rw [if_pos rfl]
    | ⟨1, _⟩ => by show c.val = if (512 : Nat) = 1 then 0 else c.val; rw [if_neg (by decide)])

theorem tanh_at {s : Shape} {φ : FTy} (v : FVec Ideal s φ) (i : s.Idx) : tanh v i = Ideal.tanh (v i) := rfl
theorem logistic_at {s : Shape} {φ : FTy} (v : FVec Ideal s φ) (i : s.Idx) : logistic v i = Ideal.logistic (v i) := rfl

/-! ### The payload at an entry -/

/-- Entry (p, q) of the body's stored value is the gated cell of row p of the feature and child-state blocks and of
    columns q (update gate) and 256 + q (output gate) of the weight blocks. -/
theorem pay_apply (x0 : FVec Ideal S800x256 .f32) (x1 : FVec Ideal S800x1024 .f32) (x2 : FVec Ideal S256x512 .bf16)
    (x3 : FVec Ideal S1024x512 .bf16) (x5 : FVec Ideal S1024x256 .bf16) (x4 : FVec Ideal S1x512 .f32)
    (p : Fin 800) (q : Fin 256) :
    k0_pay1 (F := Ideal) x0 x1 x2 x3 x5 x4 (ix2 p q)
      = cell (fun k => x0 (ix2 p k)) (fun k => x1 (ix2 p k))
          (fun k => x2 (ix2 k (lo q))) (fun k => x2 (ix2 k (hi q)))
          (fun k => x3 (ix2 k (lo q))) (fun k => x3 (ix2 k (hi q)))
          (x4 (ix2 (0 : Fin 1) (lo q))) (x4 (ix2 (0 : Fin 1) (hi q)))
          (fun k => x5 (ix2 k q)) := by
  unfold k0_pay1 cell
  simp only [shapeCast_self, addf_apply, mulf_apply, subf_apply, broadcast_apply, tanh_at, logistic_at, slice_lo,
    slice_hi, bias_row, mm_xw, mm_hu, mm_hu2, truncf_apply, Ideal.ofBits_def, Ideal.ofBits_one_f32]

/-- The same, with the blocks' entries named as entries of the six whole arrays: row `p` of the two row blocks is
    row `r` of the features and of the child states, and the three weight blocks are the sliced, transposed weights. -/
theorem block_value (x0 : FVec Ideal S800x256 .f32) (x1 : FVec Ideal S800x1024 .f32) (x2 : FVec Ideal S256x512 .bf16)
    (x3 : FVec Ideal S1024x512 .bf16) (x5 : FVec Ideal S1024x256 .bf16) (x4 : FVec Ideal S1x512 .f32)
    (X : (⟨2, ![200000, 256]⟩ : Shape).Idx → EReal) (H : (⟨2, ![200000, 1024]⟩ : Shape).Idx → EReal)
    (W : (⟨2, ![768, 256]⟩ : Shape).Idx → EReal) (U : (⟨2, ![768, 1024]⟩ : Shape).Idx → EReal)
    (b : (⟨2, ![1, 768]⟩ : Shape).Idx → EReal) (U2 : (⟨2, ![256, 1024]⟩ : Shape).Idx → EReal)
    (r : Fin 200000) (p : Fin 800) (q : Fin 256)
    (h0 : ∀ k : Fin 256, x0 (ix2 p k) = X (ix2 r k))
    (h1 : ∀ k : Fin 1024, x1 (ix2 p k) = H (ix2 r k))
    (h2 : ∀ (k : Fin 256) (c : Fin 512), x2 (ix2 k c) = W (ix2 (wRow c) k))
    (h3 : ∀ (k : Fin 1024) (c : Fin 512), x3 (ix2 k c) = U (ix2 (wRow c) k))
    (h4 : ∀ c : Fin 512, x4 (ix2 (0 : Fin 1) c) = b (ix2 (0 : Fin 1) (wRow c)))
    (h5 : ∀ (k : Fin 1024) (j : Fin 256), x5 (ix2 k j) = U2 (ix2 j k)) :
    k0_pay1 (F := Ideal) x0 x1 x2 x3 x5 x4 (ix2 p q) = gruAt X H W U b U2 r q := by
  rw [pay_apply]
  unfold gruAt
  simp only [h0, h1, h2, h3, h4, h5, wRow_lo, wRow_hi]

end Cert.TreeGru

end
-- ==== Proof.HostGlue.lean ====
/-
  What the kernel's windows find in their arrays when the region is entered.

  Before the pallas_call the host transposes each weight matrix, keeps columns 256–767 of the two stacked ones (the
  update and output gates; the first 256 columns, the unread gate, are dropped), keeps columns 256–767 of the bias
  row, and changes the float format, which is the identity on the extended reals. So entry (k, g) of a sliced,
  transposed stacked weight is entry (256 + g, k) of the argument, entry (k, j) of the transposed second matrix is
  entry (j, k) of the argument, and entry (0, g) of the bias slice is entry (0, 256 + g). The child states — gather the
  children's rows, multiply by the mask, lay the four children side by side — are the very stage the reference
  computes, from the same three arguments.
-/
import proofs.«127464_j16441134809400_1_alg».proof.Proof.Gen.KernelIdeal.Frame
import proofs.«127464_j16441134809400_1_alg».proof.Proof.Gen.ReferenceIdeal.Read
import proofs.«127464_j16441134809400_1_alg».proof.Proof.Payload
import Idealize.ShloMosaic.Lib.StableHlo.Run
import Idealize.ShloMosaic.Lib.Pipeline.Value
import Idealize.ShloMosaic.Lib.ValueIdx

noncomputable section

namespace Cert.TreeGru

open Idealize.ShloMosaic Idealize.ShloMosaic.ValueIdx Idealize.ShloMosaic.TcCoe Idealize.ShloMosaic.StableHlo
open Idealize.SL.Sem Cert.KernelIdeal Cert.KernelIdeal.Gen

variable (m : (ℓ : Loc nD τ sig) → Buf (Elt Ideal) ℓ)

/-! ### The arrays as terms of the arguments -/

/-- The weights on the features: transposed, gate columns 256–767. -/
theorem V_wT (c : Dev nD) : (V m c main_v18 : S256x512.Idx → EReal)
    = truncf (F := Ideal) .bf16 (extractStridedSlice S256x512 ![0, 256] (transpose S256x768 [1, 0] (m ((c : Thread nD τ).loc main_arg2)) transposes_S768x256_S256x768_1_0) slices_S256x768_S256x512_0_256) bitsLt_bf16_f32 := by
  dsimp only [Gen.V, Gen.hostOps0]; after_results <;> rfl

/-- The weights on the child states: transposed, gate columns 256–767. -/
theorem V_uT (c : Dev nD) : (V m c main_v19 : S1024x512.Idx → EReal)
    = truncf (F := Ideal) .bf16 (extractStridedSlice S1024x512 ![0, 256] (transpose S1024x768 [1, 0] (m ((c : Thread nD τ).loc main_arg3)) transposes_S768x1024_S1024x768_1_0) slices_S1024x768_S1024x512_0_256) bitsLt_bf16_f32 := by
  dsimp only [Gen.V, Gen.hostOps0]; after_results <;> rfl

/-- The bias row, gate columns 256–767. -/
theorem V_b (c : Dev nD) : (V m c main_v16 : S1x512.Idx → EReal)
    = extractStridedSlice S1x512 ![0, 256] (m ((c : Thread nD τ).loc main_arg4)) slices_S1x768_S1x512_0_256 := by
  dsimp only [Gen.V, Gen.hostOps0]; after_results <;> rfl

/-- The second matrix, transposed. -/
theorem V_u2T (c : Dev nD) : (V m c main_v20 : S1024x256.Idx → EReal)
    = truncf (F := Ideal) .bf16 (transpose S1024x256 [1, 0] (m ((c : Thread nD τ).loc main_arg5)) transposes_S256x1024_S1024x256_1_0) bitsLt_bf16_f32 := by
  dsimp only [Gen.V, Gen.hostOps0]; after_results <;> rfl

/-- The child states: the reference's gather–mask–reshape stage of the same three arguments. -/
theorem V_hcat (c : Dev nD) : (V m c main_v11 : S200000x1024.Idx → EReal)
    = Cert.ReferenceIdeal.Read.val_main_v11 (F := Ideal) (m ((c : Thread nD τ).loc main_arg1)) (m ((c : Thread nD τ).loc main_arg6)) (m ((c : Thread nD τ).loc main_arg7)) := by
  dsimp only [Gen.V, Gen.hostOps0]; after_results <;> rfl

/-! ### … read at an entry -/

theorem V_wT_apply (c : Dev nD) (k : Fin 256) (g : Fin 512) :
    V m c main_v18 (ix2 k g) = (m ((c : Thread nD τ).loc main_arg2)) (ix2 (wRow g) k) := by
  refine (congrFun (V_wT m c) (ix2 k g)).trans ?_
  show extractStridedSlice S256x512 ![0, 256] (transpose S256x768 [1, 0] (m ((c : Thread nD τ).loc main_arg2)) transposes_S768x256_S256x768_1_0)
    slices_S256x768_S256x512_0_256 (ix2 k g) = _
  refine (extractStridedSlice_apply ![0, 256] _ slices_S256x768_S256x512_0_256 (ix2 k g) (ix2 k (wRow g)) (fun a => match a with
    | ⟨0, _⟩ => by show k.val = 0 + k.val; omega
    | ⟨1, _⟩ => by show 256 + g.val = 256 + g.val; omega)).trans ?_
  exact transpose_apply [1, 0] _ transposes_S768x256_S256x768_1_0 (ix2 k (wRow g)) (ix2 (wRow g) k) (fun b => match b with
    | ⟨0, _⟩ => rfl
    | ⟨1, _⟩ => rfl)

theorem V_uT_apply (c : Dev nD) (k : Fin 1024) (g : Fin 512) :
    V m c main_v19 (ix2 k g) = (m ((c : Thread nD τ).loc main_arg3)) (ix2 (wRow g) k) := by
  refine (congrFun (V_uT m c) (ix2 k g)).trans ?_
  show extractStridedSlice S1024x512 ![0, 256] (transpose S1024x768 [1, 0] (m ((c : Thread nD τ).loc main_arg3)) transposes_S768x1024_S1024x768_1_0)
    slices_S1024x768_S1024x512_0_256 (ix2 k g) = _
  refine (extractStridedSlice_apply ![0, 256] _ slices_S1024x768_S1024x512_0_256 (ix2 k g) (ix2 k (wRow g)) (fun a => match a with
    | ⟨0, _⟩ => by show k.val = 0 + k.val; omega
    | ⟨1, _⟩ => by show 256 + g.val = 256 + g.val; omega)).trans ?_
  exact transpose_apply [1, 0] _ transposes_S768x1024_S1024x768_1_0 (ix2 k (wRow g)) (ix2 (wRow g) k) (fun b => match b with
    | ⟨0, _⟩ => rfl
    | ⟨1, _⟩ => rfl)

theorem V_b_apply (c : Dev nD) (g : Fin 512) :
    V m c main_v16 (ix2 (0 : Fin 1) g) = (m ((c : Thread nD τ).loc main_arg4)) (ix2 (0 : Fin 1) (wRow g)) := by
  refine (congrFun (V_b m c) (ix2 (0 : Fin 1) g)).trans ?_
  exact extractStridedSlice_apply ![0, 256] _ slices_S1x768_S1x512_0_256 (ix2 (0 : Fin 1) g) (ix2 (0 : Fin 1) (wRow g)) (fun a => match a with
    | ⟨0, _⟩ => by show (0 : Nat) = 0 + 0; omega
    | ⟨1, _⟩ => by show 256 + g.val = 256 + g.val; omega)

theorem V_u2T_apply (c : Dev nD) (k : Fin 1024) (j : Fin 256) :
    V m c main_v20 (ix2 k j) = (m ((c : Thread nD τ).loc main_arg5)) (ix2 j k) := by
  refine (congrFun (V_u2T m c) (ix2 k j)).trans ?_
  show transpose S1024x256 [1, 0] (m ((c : Thread nD τ).loc main_arg5)) transposes_S256x1024_S1024x256_1_0 (ix2 k j) = _
  exact transpose_apply [1, 0] _ transposes_S256x1024_S1024x256_1_0 (ix2 k j) (ix2 j k) (fun b => match b with
    | ⟨0, _⟩ => rfl
    | ⟨1, _⟩ => rfl)

end Cert.TreeGru

end
-- ==== Proof.Blocks.lean ====
/-
  From blocks to the whole array.

  The grid has 250 points; point `t` works on rows 800·t … 800·t + 799. The feature, child-state and output windows
  move with `t` (block index (t, 0)); the three weight windows and the bias window stay at block (0, 0) and are the
  whole of their arrays. An entry of a block is the array's entry at  block index × block size + position in the
  block  on each axis. With that, entry (p, q) of what point `t` writes back is the gated cell at row 800·t + p,
  column q — entry (800·t + p, q) of `gru`. Every row `r` lies in the block of point r / 800, so the blocks cover
  the output array and it ends holding `gru` of the argument arrays.
-/
import proofs.«127464_j16441134809400_1_alg».proof.Proof.Gen.KernelIdeal.Value
import proofs.«127464_j16441134809400_1_alg».proof.Proof.Payload
import proofs.«127464_j16441134809400_1_alg».proof.Proof.HostGlue
import Idealize.ShloMosaic.Lib.Pipeline.Value
import Idealize.ShloMosaic.Lib.ValueIdx

set_option maxRecDepth 16384

noncomputable section

namespace Cert.TreeGru

open Idealize.ShloMosaic Idealize.ShloMosaic.ValueIdx Idealize.ShloMosaic.TcCoe Idealize.SL.Sem
open Cert.KernelIdeal Cert.KernelIdeal.Gen
open Idealize.ShloMosaic.Pipeline (Dat)

variable (m : (ℓ : Loc nD τ sig) → Buf (Elt Ideal) ℓ) (ρ : Dev nD → PrngReg)

theorem zero_off : (![0, 0] : Fin 2 → Nat) = fun _ => 0 := funext fun a => by fin_cases a <;> rfl

/-- The printed index maps, decided over the 250 grid points: the row windows sit at block (t, 0), the others at (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row `p` of point `t`'s block is row 800·t + p of the array. -/
theorem row_lt (t : Fin cfg0.N) (p : Fin 800) : t.val * 800 + p.val < 200000 := by
  have ht : t.val < grid0.N := t.isLt
  rw [N_0] at ht
  have hp := p.isLt
  omega

/-- The row of the whole arrays that row `p` of point `t`'s blocks is. -/
def rowOf (t : Fin cfg0.N) (p : Fin 800) : Fin 200000 := ⟨t.val * 800 + p.val, row_lt t p⟩

/-! ### Each window's block, read as entries of the arrays -/

theorem blk_x (c : Dev nD) (t : Fin cfg0.N) (p : Fin 800) (k : Fin 256) :
    iblk m c 0 t (ix2 p k) = V m c main_arg0 (ix2 (rowOf t p) k) := by
  obtain ⟨e00, e01, e10, e11, e20, e21, e30, e31, e40, e41, e50, e51, e60, e61⟩ := idx_facts t
  show V m c main_arg0 (((cfg0.win 0).blk t).view.emb (ix2 p k)) = _
  have he : ((cfg0.win 0).blk t).view.emb (ix2 p k) = ix2 (rowOf t p) k := funext fun a => Fin.ext (by
    match a with
    | ⟨0, _⟩ => show win0_0.index t (0 : Fin 2) * 800 + 1 * p.val = t.val * 800 + p.val; omega
    | ⟨1, _⟩ => show win0_0.index t (1 : Fin 2) * 256 + 1 * k.val = k.val; omega)
  rw [he]

theorem blk_h (c : Dev nD) (t : Fin cfg0.N) (p : Fin 800) (k : Fin 1024) :
    iblk m c 1 t (ix2 p k) = V m c main_v11 (ix2 (rowOf t p) k) := by
  obtain ⟨e00, e01, e10, e11, e20, e21, e30, e31, e40, e41, e50, e51, e60, e61⟩ := idx_facts t
  show V m c main_v11 (((cfg0.win 1).blk t).view.emb (ix2 p k)) = _
  have he : ((cfg0.win 1).blk t).view.emb (ix2 p k) = ix2 (rowOf t p) k := funext fun a => Fin.ext (by
    match a with
    | ⟨0, _⟩ => show win0_1.index t (0 : Fin 2) * 800 + 1 * p.val = t.val * 800 + p.val; omega
    | ⟨1, _⟩ => show win0_1.index t (1 : Fin 2) * 1024 + 1 * k.val = k.val; omega)
  rw [he]

theorem blk_w (c : Dev nD) (t : Fin cfg0.N) (k : Fin 256) (g : Fin 512) :
    iblk m c 2 t (ix2 k g) = (m ((c : Thread nD τ).loc main_arg2)) (ix2 (wRow g) k) := by
  obtain ⟨e00, e01, e10, e11, e20, e21, e30, e31, e40, e41, e50, e51, e60, e61⟩ := idx_facts t
  show V m c main_v18 (((cfg0.win 2).blk t).view.emb (ix2 k g)) = _
  have he : ((cfg0.win 2).blk t).view.emb (ix2 k g) = ix2 k g := funext fun a => Fin.ext (by
    match a with
    | ⟨0, _⟩ => show win0_2.index t (0 : Fin 2) * 256 + 1 * k.val = k.val; omega
    | ⟨1, _⟩ => show win0_2.index t (1 : Fin 2) * 512 + 1 * g.val = g.val; omega)
  rw [he]
  exact V_wT_apply m c k g

theorem blk_u (c : Dev nD) (t : Fin cfg0.N) (k : Fin 1024) (g : Fin 512) :
    iblk m c 3 t (ix2 k g) = (m ((c : Thread nD τ).loc main_arg3)) (ix2 (wRow g) k) := by
  obtain ⟨e00, e01, e10, e11, e20, e21, e30, e31, e40, e41, e50, e51, e60, e61⟩ := idx_facts t
  show V m c main_v19 (((cfg0.win 3).blk t).view.emb (ix2 k g)) = _
  have he : ((cfg0.win 3).blk t).view.emb (ix2 k g) = ix2 k g := funext fun a => Fin.ext (by
    match a with
    | ⟨0, _⟩ => show win0_3.index t (0 : Fin 2) * 1024 + 1 * k.val = k.val; omega
    | ⟨1, _⟩ => show win0_3.index t (1 : Fin 2) * 512 + 1 * g.val = g.val; omega)
  rw [he]
  exact V_uT_apply m c k g

theorem blk_b (c : Dev nD) (t : Fin cfg0.N) (g : Fin 512) :
    iblk m c 4 t (ix2 (0 : Fin 1) g) = (m ((c : Thread nD τ).loc main_arg4)) (ix2 (0 : Fin 1) (wRow g)) := by
  obtain ⟨e00, e01, e10, e11, e20, e21, e30, e31, e40, e41, e50, e51, e60, e61⟩ := idx_facts t
  show V m c main_v16 (((cfg0.win 4).blk t).view.emb (ix2 (0 : Fin 1) g)) = _
  have he : ((cfg0.win 4).blk t).view.emb (ix2 (0 : Fin 1) g) = ix2 (0 : Fin 1) g := funext fun a => Fin.ext (by
    match a with
    | ⟨0, _⟩ => show win0_4.index t (0 : Fin 2) * 1 + 1 * 0 = 0; omega
    | ⟨1, _⟩ => show win0_4.index t (1 : Fin 2) * 512 + 1 * g.val = g.val; omega)
  rw [he]
  exact V_b_apply m c g

theorem blk_u2 (c : Dev nD) (t : Fin cfg0.N) (k : Fin 1024) (j : Fin 256) :
    iblk m c 5 t (ix2 k j) = (m ((c : Thread nD τ).loc main_arg5)) (ix2 j k) := by
  obtain ⟨e00, e01, e10, e11, e20, e21, e30, e31, e40, e41, e50, e51, e60, e61⟩ := idx_facts t
  show V m c main_v20 (((cfg0.win 5).blk t).view.emb (ix2 k j)) = _
  have he : ((cfg0.win 5).blk t).view.emb (ix2 k j) = ix2 k j := funext fun a => Fin.ext (by
    match a with
    | ⟨0, _⟩ => show win0_5.index t (0 : Fin 2) * 1024 + 1 * k.val = k.val; omega
    | ⟨1, _⟩ => show win0_5.index t (1 : Fin 2) * 256 + 1 * j.val = j.val; omega)
  rw [he]
  exact V_u2T_apply m c k j

/-! ### What a point writes back -/

/-- Point `t` writes back block `t` of `gru` of the arrays as the region finds them. -/
theorem flushed_eq (c : Dev nD) (t : Fin cfg0.N) :
    (dats m 0 c).flushed 6 t = ((cfg0.win 6).blk t).view.read (Elt Ideal)
      (gru (V m c main_arg0) (V m c main_v11) (m ((c : Thread nD τ).loc main_arg2)) (m ((c : Thread nD τ).loc main_arg3)) (m ((c : Thread nD τ).loc main_arg4)) (m ((c : Thread nD τ).loc main_arg5))) := by
  rw [Cert.KernelIdeal.Value.flushed6]
  unfold out0_6
  rw [View.canon_unit_zero zero_off]
  simp only [View.ld_unit_zero (S := S800x256) zero_off, View.ld_unit_zero (S := S800x1024) zero_off,
    View.ld_unit_zero (S := S256x512) zero_off, View.ld_unit_zero (S := S1024x512) zero_off,
    View.ld_unit_zero (S := S1024x256) zero_off, View.ld_unit_zero (S := S1x512) zero_off]
  obtain ⟨e00, e01, e10, e11, e20, e21, e30, e31, e40, e41, e50, e51, e60, e61⟩ := idx_facts t
  funext y
  obtain ⟨p, q, rfl⟩ : ∃ (p : Fin 800) (q : Fin 256), y = ix2 p q := ⟨y 0, y 1, eq_ix2 y⟩
  show k0_pay1 (F := Ideal) (iblk m c 0 t) (iblk m c 1 t) (iblk m c 2 t) (iblk m c 3 t) (iblk m c 5 t) (iblk m c 4 t) (ix2 p q)
    = gru (V m c main_arg0) (V m c main_v11) (m ((c : Thread nD τ).loc main_arg2)) (m ((c : Thread nD τ).loc main_arg3)) (m ((c : Thread nD τ).loc main_arg4)) (m ((c : Thread nD τ).loc main_arg5))
        (((cfg0.win 6).blk t).view.emb (ix2 p q))
  have he : ((cfg0.win 6).blk t).view.emb (ix2 p q) = ix2 (rowOf t p) q := funext fun a => Fin.ext (by
    match a with
    | ⟨0, _⟩ => show win0_6.index t (0 : Fin 2) * 800 + 1 * p.val = t.val * 800 + p.val; omega
    | ⟨1, _⟩ => show win0_6.index t (1 : Fin 2) * 256 + 1 * q.val = q.val; omega)
  rw [he, gru_ix2]
  exact block_value (iblk m c 0 t) (iblk m c 1 t) (iblk m c 2 t) (iblk m c 3 t) (iblk m c 5 t) (iblk m c 4 t)
    (V m c main_arg0) (V m c main_v11) (m ((c : Thread nD τ).loc main_arg2)) (m ((c : Thread nD τ).loc main_arg3)) (m ((c : Thread nD τ).loc main_arg4)) (m ((c : Thread nD τ).loc main_arg5)) (rowOf t p) p q
    (fun k => blk_x m c t p k) (fun k => blk_h m c t p k) (fun k g => blk_w m c t k g) (fun k g => blk_u m c t k g)
    (fun g => blk_b m c t g) (fun k j => blk_u2 m c t k j)

/-! ### The cover, and the array after the run -/

/-- An index of the output array is in point `t`'s block iff each coordinate is in the block's range on its axis. -/
theorem mem_blk (t : Fin cfg0.N) (i : S200000x256.Idx) :
    i ∈ ((cfg0.win 6).blk t).view.set ↔ ∀ a : Fin 2, win0_6.index t a * S800x256.size a ≤ (i a).val
      ∧ (i a).val < win0_6.index t a * S800x256.size a + S800x256.size a := by
  show i ∈ ((View.whole main_v21).slice (win0_6.rect t)).set ↔ _
  rw [View.set_slice_whole, Rect.mem_set_unit]
  exact Iff.rfl

/-- Row `r` is in the block of point r / 800. -/
theorem cover (i : S200000x256.Idx) :
    ∃ t : Fin cfg0.N, (cfg0.win 6).flush t = true ∧ i ∈ ((cfg0.win 6).blk t).view.set := by
  have hi0 : (i 0).val < 200000 := (i 0).isLt
  have hi1 : (i 1).val < 256 := (i 1).isLt
  obtain ⟨t, ht⟩ : ∃ t : Fin cfg0.N, t.val = (i 0).val / 800 :=
    ⟨⟨(i 0).val / 800, by show (i 0).val / 800 < grid0.N; rw [N_0]; omega⟩, rfl⟩
  obtain ⟨e00, e01, e10, e11, e20, e21, e30, e31, e40, e41, e50, e51, e60, e61⟩ := idx_facts t
  refine ⟨t, flush0_6 t, ?_⟩
  rw [mem_blk]
  intro a
  match a with
  | ⟨0, _⟩ =>
    show win0_6.index t (0 : Fin 2) * 800 ≤ (i 0).val ∧ (i 0).val < win0_6.index t (0 : Fin 2) * 800 + 800
    omega
  | ⟨1, _⟩ =>
    show win0_6.index t (1 : Fin 2) * 256 ≤ (i 1).val ∧ (i 1).val < win0_6.index t (1 : Fin 2) * 256 + 256
    omega

/-- The output array after the run is `gru` of the argument arrays, the child states being the
    gather–mask–reshape stage of the hidden states, the child indices and the mask. -/
theorem final (c : Dev nD) : (dats m 0 c).arrAt 6 cfg0.N
    = gru (m ((c : Thread nD τ).loc main_arg0)) (Cert.ReferenceIdeal.Read.val_main_v11 (F := Ideal) (m ((c : Thread nD τ).loc main_arg1)) (m ((c : Thread nD τ).loc main_arg6)) (m ((c : Thread nD τ).loc main_arg7))) (m ((c : Thread nD τ).loc main_arg2)) (m ((c : Thread nD τ).loc main_arg3)) (m ((c : Thread nD τ).loc main_arg4)) (m ((c : Thread nD τ).loc main_arg5)) := by
  rw [(dats m 0 c).arrAt_eq_of_cover 6
    (gru (V m c main_arg0) (V m c main_v11) (m ((c : Thread nD τ).loc main_arg2)) (m ((c : Thread nD τ).loc main_arg3)) (m ((c : Thread nD τ).loc main_arg4)) (m ((c : Thread nD τ).loc main_arg5)))
    (fun t _ => flushed_eq m c t) cover]
  rw [V_main_arg0 m c, V_hcat m c]

/-- The kernel's run, with the result array named. -/
theorem run : θ_run defs (onTc (τ := τ) (main (F := Ideal))) ⟨m, fun _ => 0, ρ⟩ fun r => ∀ c : Dev nD,
      r.2.mem ((c : Thread nD τ).loc main_v21)
        = gru (m ((c : Thread nD τ).loc main_arg0)) (Cert.ReferenceIdeal.Read.val_main_v11 (F := Ideal) (m ((c : Thread nD τ).loc main_arg1)) (m ((c : Thread nD τ).loc main_arg6)) (m ((c : Thread nD τ).loc main_arg7))) (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩)
    (Cert.KernelIdeal.Value.run_blocks m ρ)

end Cert.TreeGru

end
-- ==== Proof.RefSpec.lean ====
/-
  The reference program's result is the specification `gru`, index by index.

  The reference forms the full 768-column gate pre-activation  x · Wᵀ + h · Uᵀ + b  and then cuts it into three
  256-column thirds; it applies 1 / (1 + e^(−·)) to the second third, tanh to the last, and combines them with
  h · U₂ᵀ. Reading each operation at an entry turns the transposes and slices into index arithmetic: column `j` of the
  second third is row `256 + j` of the stacked weights, column `j` of the last third is row `512 + j`. The reference's
  spelled-out 1 / (1 + e^(−u)) is the logistic function by definition, once the float literal 1.0 is read as the
  number one. The child-state array `h` (a gather, a mask and a reshape) is carried as one unopened term.
-/
import proofs.«127464_j16441134809400_1_alg».proof.Proof.Gen.ReferenceIdeal.Read
import proofs.«127464_j16441134809400_1_alg».proof.Proof.Spec
import Idealize.ShloMosaic.Lib.IdealHost

noncomputable section

namespace Cert.TreeGru

open Idealize.ShloMosaic Idealize.ShloMosaic.ValueIdx Cert.ReferenceIdeal Cert.ReferenceIdeal.Read

/-- The reference's result array is `gru` of its arguments, the child states being the reference's own
    gather–mask–reshape stage. -/
theorem ref_is_gru (x0 x1 : (⟨S200000x256, .f32⟩ : BufTy).Contents (Elt Ideal)) (x2 : (⟨S768x256, .f32⟩ : BufTy).Contents (Elt Ideal))
    (x3 : (⟨S768x1024, .f32⟩ : BufTy).Contents (Elt Ideal)) (x4 : (⟨S1x768, .f32⟩ : BufTy).Contents (Elt Ideal))
    (x5 : (⟨S256x1024, .f32⟩ : BufTy).Contents (Elt Ideal)) (x6 x7 : (⟨S200000x4, .i32⟩ : BufTy).Contents (Elt Ideal)) :
    val_main_v35 (F := Ideal) x0 x1 x2 x3 x4 x5 x6 x7 = gru x0 (val_main_v11 (F := Ideal) x1 x6 x7) x2 x3 x4 x5 := by
  funext i
  obtain ⟨r, j, rfl⟩ : ∃ (r : Fin 200000) (j : Fin 256), i = ix2 r j := ⟨i 0, i 1, eq_ix2 i⟩
  rw [gru_ix2]
  unfold gruAt cell
  -- the output gate: the last third of the 768 columns, offset 512
  have o13l : ∀ x : Fin 256, lidx_main_v13 (idx_main_v21 (ix2 r j)) x = ix2 r x := fun x => funext fun a => Fin.ext (by match a with | ⟨0, _⟩ => rfl | ⟨1, _⟩ => rfl)
  have o13r : ∀ x : Fin 256, idx_main_v12 (ridx_main_v13 (idx_main_v21 (ix2 r j)) x) = ix2 (oRow j) x := fun x => funext fun a => Fin.ext (by match a with | ⟨0, _⟩ => rfl | ⟨1, _⟩ => rfl)
  have o15l : ∀ x : Fin 1024, lidx_main_v15 (idx_main_v21 (ix2 r j)) x = ix2 r x := fun x => funext fun a => Fin.ext (by match a with | ⟨0, _⟩ => rfl | ⟨1, _⟩ => rfl)
  have o15r : ∀ x : Fin 1024, idx_main_v14 (ridx_main_v15 (idx_main_v21 (ix2 r j)) x) = ix2 (oRow j) x := fun x => funext fun a => Fin.ext (by match a with | ⟨0, _⟩ => rfl | ⟨1, _⟩ => rfl)
  have o17 : idx_main_v17 (idx_main_v21 (ix2 r j)) = ix2 (0 : Fin 1) (oRow j) := funext fun a => Fin.ext (by match a with | ⟨0, _⟩ => rfl | ⟨1, _⟩ => rfl)
  -- the update gate: the middle third, offset 256
  have u13l : ∀ x : Fin 256, lidx_main_v13 (idx_main_v20 (ix2 r j)) x = ix2 r x := fun x => funext fun a => Fin.ext (by match a with | ⟨0, _⟩ => rfl | ⟨1, _⟩ => rfl)
  have u13r : ∀ x : Fin 256, idx_main_v12 (ridx_main_v13 (idx_main_v20 (ix2 r j)) x) = ix2 (uRow j) x := fun x => funext fun a => Fin.ext (by match a with | ⟨0, _⟩ => rfl | ⟨1, _⟩ => rfl)
  have u15l : ∀ x : Fin 1024, lidx_main_v15 (idx_main_v20 (ix2 r j)) x = ix2 r x := fun x => funext fun a => Fin.ext (by match a with | ⟨0, _⟩ => rfl | ⟨1, _⟩ => rfl)
  have u15r : ∀ x : Fin 1024, idx_main_v14 (ridx_main_v15 (idx_main_v20 (ix2 r j)) x) = ix2 (uRow j) x := fun x => funext fun a => Fin.ext (by match a with | ⟨0, _⟩ => rfl | ⟨1, _⟩ => rfl)
  have u17 : idx_main_v17 (idx_main_v20 (ix2 r j)) = ix2 (0 : Fin 1) (uRow j) := funext fun a => Fin.ext (by match a with | ⟨0, _⟩ => rfl | ⟨1, _⟩ => rfl)
  -- the product with the second matrix
  have h30l : ∀ x : Fin 1024, lidx_main_v30 (ix2 r j) x = ix2 r x := fun x => funext fun a => Fin.ext (by match a with | ⟨0, _⟩ => rfl | ⟨1, _⟩ => rfl)
  have h30r : ∀ x : Fin 1024, idx_main_v29 (ridx_main_v30 (ix2 r j) x) = ix2 j x := fun x => funext fun a => Fin.ext (by match a with | ⟨0, _⟩ => rfl | ⟨1, _⟩ => rfl)
  simp only [val_main_v35_apply, val_main_v31_apply, val_main_v34_apply, val_main_v28_apply, val_main_v27_apply,
    val_main_v33_apply, val_main_v32_apply, val_main_v26_apply, val_main_v25_apply, val_main_v24_apply, val_main_v23_apply,
    val_main_v22_apply, val_main_v21_apply, val_main_v20_apply, val_main_v18_apply, val_main_v17_apply, val_main_v16_apply,
    val_main_v15_apply, val_main_v13_apply, val_main_v14_apply, val_main_v12_apply, val_main_v30_apply, val_main_v29_apply,
    val_main_cst_apply, val_main_cst_1_apply, val_main_cst_2_apply]
  simp only [o13l, o13r, o15l, o15r, o17, u13l, u13r, u15l, u15r, u17, h30l, h30r]
  simp only [Ideal.addf_def, Ideal.mulf_def, Ideal.subf_def, Ideal.hostUnary_tanh_def, Ideal.hostUnary_exp_def,
    Ideal.hostDivf_def, Ideal.hostNegf_def, Ideal.negf_def, Ideal.ofBits_def, Ideal.ofBits_one_f32, Ideal.logistic]

end Cert.TreeGru

end
-- ==== Proof.lean ====
/-
  An n-ary tree GRU cell, computed two ways, gives the same array over the extended reals.

  Both programs start from the same child-state array: gather the four children's hidden rows, multiply by the mask,
  lay the children side by side (200000 × 1024). The reference then forms all 768 gate columns  x · Wᵀ + h · Uᵀ + b,
  cuts them into thirds, and returns  tanh(o) · σ(u) + (1 − σ(u)) · (h · U₂ᵀ)  with u the middle third, o the last and
  σ(u) = 1 / (1 + e^(−u)). The kernel drops the unread first third of the weights up front, transposes them on the
  host, and computes the same expression 800 rows at a time, with the logistic function as one operation.

  At each entry (r, j) both are the same finite sums in the same order — row r of x against row 256 + j (update) and
  row 512 + j (output) of W, row r of h against the same rows of U and against row j of U₂ — so no law of arithmetic
  beyond re-indexing is needed, and the finiteness of the inputs is never used. `Spec` states that function, `RefSpec`
  shows the reference computes it, `Payload`, `HostGlue` and `Blocks` show the kernel's output array is it.
  The kernel and its idealization differ by no rewrite, so that conjunct is trivially true; each program's run also
  leaves its arguments as they were.
-/
import proofs.«127464_j16441134809400_1_alg».proof.Defs
import proofs.«127464_j16441134809400_1_alg».proof.Proof.Gen.Kernel
import proofs.«127464_j16441134809400_1_alg».proof.Proof.Gen.Kernel.Skeleton
import proofs.«127464_j16441134809400_1_alg».proof.Proof.Gen.Kernel.Launch
import proofs.«127464_j16441134809400_1_alg».proof.Proof.Gen.Kernel.Points
import proofs.«127464_j16441134809400_1_alg».proof.Proof.Gen.Kernel.Frame
import proofs.«127464_j16441134809400_1_alg».proof.Proof.Gen.KernelIdeal
import proofs.«127464_j16441134809400_1_alg».proof.Proof.Gen.KernelIdeal.Skeleton
import proofs.«127464_j16441134809400_1_alg».proof.Proof.Gen.KernelIdeal.Launch
import proofs.«127464_j16441134809400_1_alg».proof.Proof.Gen.KernelIdeal.Points
import proofs.«127464_j16441134809400_1_alg».proof.Proof.Gen.KernelIdeal.Frame
import proofs.«127464_j16441134809400_1_alg».proof.Proof.Gen.ReferenceIdeal
import proofs.«127464_j16441134809400_1_alg».proof.Proof.Gen.Pre_finite_inputs
import proofs.«127464_j16441134809400_1_alg».proof.Proof.Gen.KernelIdeal.Value
import proofs.«127464_j16441134809400_1_alg».proof.Proof.Gen.ReferenceIdeal.Run
import proofs.«127464_j16441134809400_1_alg».proof.Proof.Gen.ReferenceIdeal.Read
import proofs.«127464_j16441134809400_1_alg».proof.Proof.Blocks
import proofs.«127464_j16441134809400_1_alg».proof.Proof.RefSpec
import Idealize.ShloMosaic.Adequacy
import Idealize.ShloMosaic.Init

noncomputable section

namespace Cert.Proof

open Idealize.ShloMosaic Idealize.SL.Sem

/-- The kernel as printed terminates without a fault and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the eight arguments, the kernel's output array and the reference's result are both
    `gru` of those arguments. -/
theorem algebraic : Cert.algebraic_KernelIdeal_ReferenceIdeal := by
  intro m ρ m' ρ' _ hagree
  refine ⟨_, Cert.TreeGru.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v35_eq, Cert.TreeGru.ref_is_gru]
  obtain ⟨a0, a1, a2, a3, a4, a5, a6, a7⟩ := hagree c
  rw [a0, a1, a2, a3, a4, a5, a6, a7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
